-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel

variable [Facts]

def fn {F : FTy → Type} [FloatOps F] (main_arg0 : FVec F S8x8192x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  main_v3
-- ==== Kernel.lean ====
abbrev S8x8192x512 : Shape := ⟨3, ![8, 8192, 512]⟩
abbrev S1x2048x512 : Shape := ⟨3, ![1, 2048, 512]⟩
abbrev S1x2048 : Shape := ⟨2, ![1, 2048]⟩
abbrev S1x2048x1 : Shape := ⟨3, ![1, 2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x8192x512.size a
  hwx0_0 : ∀ i : grid0.Coords, EltTy.bits .f32 = 32 ∨ (Rect.block (s := S8x8192x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x8192x512.size a
  hwx0_1 : ∀ i : grid0.Coords, EltTy.bits .f32 = 32 ∨ (Rect.block (s := S8x8192x512) S1x2048x512.size (cc0_transform_1 i) (hinb0_1 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x8192x512 : Shape := ⟨3, ![8, 8192, 512]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S_, .f32⟩
  | .hbm, ⟨2, _⟩ => ⟨S8x8192, .f32⟩
  | .hbm, ⟨3, _⟩ => ⟨S8x8192x1, .f32⟩
  | .hbm, ⟨4, _⟩ => ⟨S8x8192x1, .f32⟩
  | .hbm, ⟨5, _⟩ => ⟨S8x8192x512, .f32⟩
  | .hbm, ⟨6, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S8x8192x1_S8x8192x512_0_1_2 : S8x8192x1.BroadcastsInDim S8x8192x512 (![0, 1, 2] : Fin 3 → Fin S8x8192x512.rank)

variable [Facts₀]

class Facts : Prop extends Facts₀ where

variable [Facts]
-- ==== Proof.RowSumSpec.lean ====
/-
  The function both programs compute when floats are read as extended reals: over an array of shape [8, 8192, 512],
  every entry plus the NEGATED SUM OF ITS ROW, a row being the 512 entries that share the first two coordinates:

      out[b, s, d] = x[b, s, d] + -(∑ k < 512, x[b, s, k]).

  Stated once here, over literal shapes and indices built from coordinates, with the one structural fact the tiling
  needs: a block made of whole rows computes the same function of its own entries.
-/
import Idealize.ShloMosaic.PureOps.Ideal
import Idealize.ShloMosaic.Lib.ValueIdx

noncomputable section

open scoped BigOperators

namespace Cert.RowSum

open Idealize.ShloMosaic Idealize.ShloMosaic.ValueIdx

/-- The whole array's shape. -/
abbrev Arr : Shape := ⟨3, ![8, 8192, 512]⟩
/-- One block's shape: 2048 whole rows of one batch entry. -/
abbrev Blk : Shape := ⟨3, ![1, 2048, 512]⟩

/-- Every entry plus the negated sum of the 512 entries of its row. -/
def minusRowSum (x : Arr.Idx → EReal) : Arr.Idx → EReal :=
  fun i => x i + -(∑ k : Fin 512, x (ix3 (i 0) (i 1) k))

/-- A block of whole rows: if the block `P` is the array `X` read through an embedding `e` of block indices that
    carries a walk along a block row to the walk along the array row (`hrow`), then "entry plus negated row sum"
    computed inside the block is `minusRowSum X` at the embedded index. -/
theorem minusRowSum_block (X : Arr.Idx → EReal) (P : Blk.Idx → EReal) (e : Blk.Idx → Arr.Idx)
    (hP : ∀ z, P z = X (e z))
    (hrow : ∀ (z : Blk.Idx) (k : Fin 512), e (ix3 (z 0) (z 1) k) = ix3 (e z 0) (e z 1) k) (y : Blk.Idx) :
    P y + -(∑ k : Fin 512, P (ix3 (y 0) (y 1) k)) = minusRowSum X (e y) := by
  unfold minusRowSum
  rw [hP y]
  refine congrArg (fun s => X (e y) + -s) (Finset.sum_congr rfl fun k _ => ?_)
  exact (hP _).trans (congrArg X (hrow y k))

end Cert.RowSum

end
-- ==== Proof.ReferenceValue.lean ====
/-
  The reference's result, read one operation at a time: the sum over the last axis starting from zero, kept as a
  column, negated, spread back over the 512 lanes and added to the argument — at every index the argument's entry
  plus the negated sum of its row (`Cert.RowSum.minusRowSum`). The zero the sum starts from disappears (`0 + s = s`).
-/
import proofs.«174104_j66949950210077_2_alg».proof.Proof.Gen.ReferenceIdeal.Read
import proofs.«174104_j66949950210077_2_alg».proof.Proof.RowSumSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- Reading the spread-out column at `i` and then the summed row at lane `k` lands in `i`'s own row at lane `k`. -/
theorem row_index (i : S8x8192x512.Idx) (k : Fin 512) :
    idx_main_v0 (idx_main_v1 (idx_main_v3 i)) k = ix3 (i 0) (i 1) k :=
  funext fun a => Fin.ext (by match a with | ⟨0, _⟩ => rfl | ⟨1, _⟩ => rfl | ⟨2, _⟩ => rfl)

/-- The reference's last stage is "entry plus negated row sum" of its argument. -/
theorem result_eq (x : (⟨S8x8192x512, .f32⟩ : BufTy).Contents (Elt Ideal)) :
    val_main_v4 (F := Ideal) x = Cert.RowSum.minusRowSum x := by
  funext i
  rw [val_main_v4_apply, val_main_v3_apply, val_main_v2_apply, val_main_v1_apply, val_main_v0_apply,
    val_main_cst_apply]
  simp only [Ideal.addf_def, Ideal.hostNegf_def, Ideal.negf_def, Ideal.ofBits_def, Ideal.ofBits_zero_f32, zero_add,
    row_index]
  rfl

end Cert.ReferenceIdeal.RefValue

end
-- ==== Proof.BlockValue.lean ====
/-
  What the kernel body leaves in one output block, read at the extended reals: the body loads a block of 2048 whole
  rows, sums each row over its 512 lanes (a lane reduction into a zero accumulator), subtracts that sum from zero,
  spreads the result back over the lanes and adds it to the loaded block. At every block index this is the loaded
  entry plus the negated sum of its row: `0 - s = -s` on the extended reals.
-/
import proofs.«174104_j66949950210077_2_alg».proof.Proof.Gen.KernelIdeal.Value
import proofs.«174104_j66949950210077_2_alg».proof.Proof.RowSumSpec
import Idealize.ShloMosaic.PureOps.Ideal.Laws

noncomputable section

open scoped BigOperators

namespace Cert.KernelIdeal.BlockValue

open Cert.KernelIdeal Cert.KernelIdeal.Gen Cert.KernelIdeal.Value
open Idealize.ShloMosaic Idealize.ShloMosaic.ValueIdx

/-- The lane reduction of a block at a row index is the sum of that row's 512 entries. -/
theorem row_sum (P : FVec Ideal S1x2048x512 .f32) (r : S1x2048.Idx)
    (hacc : (0x00000000#32 : BitVec 32) = 0x00000000#32) :
    multiReduction .add [2] S1x2048 P 0x00000000#32 reduces_S1x2048x512_S1x2048 (.inl rfl) hacc r
      = ∑ k : Fin 512, P (ix3 (r 0) (r 1) k) := by
  refine (Ideal.multiReduction_add_single P 0x00000000#32 reduces_S1x2048x512_S1x2048 (.inl rfl) hacc r).trans ?_
  refine Finset.sum_congr rfl fun k _ => congrArg P ?_
  exact funext fun a => Fin.ext (by match a with | ⟨0, _⟩ => rfl | ⟨1, _⟩ => rfl | ⟨2, _⟩ => rfl)

/-- The body's result at a block index: the loaded entry plus the negated sum of its row. -/
theorem block_eq (P : FVec Ideal S1x2048x512 .f32) (y : S1x2048x512.Idx) :
    E1 (F := Ideal) P y = P y + -(∑ k : Fin 512, P (ix3 (y 0) (y 1) k)) := by
  have h0 : (y 0).val < 1 := (y 0).isLt
  have ey : ix1_0 y = y :=
    funext fun a => Fin.ext (by match a with | ⟨0, _⟩ => (show 0 = (y 0).val; omega) | ⟨1, _⟩ => rfl | ⟨2, _⟩ => rfl)
  have er : ∀ k : Fin 512, (ix3 ((ix1_1 y) 0) ((ix1_1 y) 1) k : S1x2048x512.Idx) = ix3 (y 0) (y 1) k := fun k =>
    funext fun a => Fin.ext (by match a with | ⟨0, _⟩ => (show 0 = (y 0).val; omega) | ⟨1, _⟩ => rfl | ⟨2, _⟩ => rfl)
  show P (ix1_0 y) + (Ideal.ofBits .f32 0x00000000#32
      - multiReduction .add [2] S1x2048 P 0x00000000#32 reduces_S1x2048x512_S1x2048 (.inl rfl) rfl (ix1_1 y)) = _
  rw [row_sum P (ix1_1 y) rfl, ey, Ideal.ofBits_zero_f32, zero_sub]
  exact congrArg (fun s => P y + -s) (Finset.sum_congr rfl fun k _ => congrArg P (er k))

end Cert.KernelIdeal.BlockValue

end
-- ==== Proof.ArrayValue.lean ====
/-
  From blocks to the whole array. The grid has 8 × 4 points; point (b, q) stages rows 2048·q … 2048·q + 2047 of batch
  entry b, all 512 lanes, and writes the same block of the result back. The input and output windows move together
  and never move along the lane axis, so a block is a set of whole rows, and the 32 blocks tile the array: every index
  (b, s, d) lies in the block of point (b, s / 2048). Hence the result array ends holding "entry plus negated row sum"
  of the argument at every index.
-/
import proofs.«174104_j66949950210077_2_alg».proof.Proof.Gen.KernelIdeal.Value
import proofs.«174104_j66949950210077_2_alg».proof.Proof.BlockValue
import Idealize.ShloMosaic.Lib.Pipeline.Value

noncomputable section

open scoped BigOperators

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body loads and stores its staging buffers from offset zero on every axis. -/
theorem zero_offsets : (![0, 0, 0] : Fin 3 → Nat) = fun _ => 0 := funext fun a => by fin_cases a <;> rfl

/-- The two index maps, decided over the 32 grid points: the input block and the output block of a point have the
    same block coordinates on the batch and row axes, and both sit at block 0 of the lane axis. -/
theorem index_facts : ∀ t : Fin cfg0.N,
    win0_0.index t (0 : Fin 3) = win0_1.index t (0 : Fin 3)
    ∧ win0_0.index t (1 : Fin 3) = win0_1.index t (1 : Fin 3)
    ∧ win0_0.index t (2 : Fin 3) = 0
    ∧ win0_1.index t (2 : Fin 3) = 0 :=
  (by decide +kernel : ∀ t : Fin grid0.N, _)

/-- Every (batch entry, row tile) pair is some grid point's output block. -/
theorem index_onto : ∀ (b : Fin 8) (q : Fin 4), ∃ t : Fin cfg0.N, win0_1.index t = ![b.val, q.val, 0] :=
  (by decide +kernel : ∀ (b : Fin 8) (q : Fin 4), ∃ t : Fin grid0.N, win0_1.index t = ![b.val, q.val, 0])

/-- What point `t` writes back is block `t` of "entry plus negated row sum" of the argument array: the body's result
    on the staged block (the generated canon of its one store, read at the extended reals), the staged block being the
    argument read through the output block's own rectangle, which holds whole rows. -/
theorem flushed_eq (c : Dev nD) (t : Fin cfg0.N) :
    (dats m 0 c).flushed 1 t
      = ((cfg0.win 1).blk t).view.read (Elt Ideal) (Cert.RowSum.minusRowSum (V m c main_arg0)) := by
  rw [flushed1]
  unfold out0_1
  rw [View.ld_unit_zero (S := S1x2048x512) zero_offsets]
  obtain ⟨e0, e1, e2, e3⟩ := index_facts t
  funext j
  show View.canon ([⟨r0_0, k0_pay1 (iblk m c 0 t)⟩] : List (View.Piece (Elt Ideal) S1x2048x512 .f32)) j
    = Cert.RowSum.minusRowSum (V m c main_arg0) (((cfg0.win 1).blk t).view.emb j)
  refine (canon1_eq (F := Ideal) (iblk m c 0 t) j).trans ?_
  refine (BlockValue.block_eq (iblk m c 0 t) j).trans ?_
  refine Cert.RowSum.minusRowSum_block (V m c main_arg0) (iblk m c 0 t)
    (fun z => ((cfg0.win 1).blk t).view.emb z) (fun z => ?_) (fun z k => ?_) j
  · show V m c main_arg0 (((cfg0.win 0).blk t).view.emb z) = V m c main_arg0 (((cfg0.win 1).blk t).view.emb z)
    refine congrArg _ (funext fun a => Fin.ext ?_)
    match a with
    | ⟨0, _⟩ =>
      show win0_0.index t (0 : Fin 3) * 1 + 1 * (z 0).val = win0_1.index t (0 : Fin 3) * 1 + 1 * (z 0).val
      omega
    | ⟨1, _⟩ =>
      show win0_0.index t (1 : Fin 3) * 2048 + 1 * (z 1).val = win0_1.index t (1 : Fin 3) * 2048 + 1 * (z 1).val
      omega
    | ⟨2, _⟩ =>
      show win0_0.index t (2 : Fin 3) * 512 + 1 * (z 2).val = win0_1.index t (2 : Fin 3) * 512 + 1 * (z 2).val
      omega
  · refine funext fun a => Fin.ext ?_
    match a with
    | ⟨0, _⟩ => rfl
    | ⟨1, _⟩ => rfl
    | ⟨2, _⟩ =>
      show win0_1.index t (2 : Fin 3) * 512 + 1 * k.val = k.val
      omega

/-- An index of the array is in point `t`'s output block iff each coordinate is in the block's range on its axis. -/
theorem mem_block (t : Fin cfg0.N) (i : S8x8192x512.Idx) :
    i ∈ ((cfg0.win 1).blk t).view.set ↔ ∀ a : Fin 3, win0_1.index t a * S1x2048x512.size a ≤ (i a).val
      ∧ (i a).val < win0_1.index t a * S1x2048x512.size a + S1x2048x512.size a := by
  show i ∈ ((View.whole main_v0).slice (win0_1.rect t)).set ↔ _
  rw [View.set_slice_whole, Rect.mem_set_unit]
  exact Iff.rfl

/-- The 32 output blocks cover the array: index (b, s, d) is in the block of the point at (b, s / 2048). -/
theorem covered (i : S8x8192x512.Idx) :
    ∃ t : Fin cfg0.N, (cfg0.win 1).flush t = true ∧ i ∈ ((cfg0.win 1).blk t).view.set := by
  have hi0 : (i 0).val < 8 := (i 0).isLt
  have hi1 : (i 1).val < 8192 := (i 1).isLt
  have hi2 : (i 2).val < 512 := (i 2).isLt
  obtain ⟨t, ht⟩ := index_onto ⟨(i 0).val, hi0⟩ ⟨(i 1).val / 2048, by omega⟩
  have q0 : win0_1.index t (0 : Fin 3) = (i 0).val := congrFun ht 0
  have q1 : win0_1.index t (1 : Fin 3) = (i 1).val / 2048 := congrFun ht 1
  have q2 : win0_1.index t (2 : Fin 3) = 0 := congrFun ht 2
  refine ⟨t, flush0_1 t, ?_⟩
  rw [mem_block]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 2048 ≤ (i 1).val ∧ (i 1).val < win0_1.index t (1 : Fin 3) * 2048 + 2048
    omega
  | ⟨2, _⟩ =>
    show win0_1.index t (2 : Fin 3) * 512 ≤ (i 2).val ∧ (i 2).val < win0_1.index t (2 : Fin 3) * 512 + 512
    omega

/-- The result array after the run: "entry plus negated row sum" of the argument as launched (no host operation
    before the region writes the argument). -/
theorem final (c : Dev nD) :
    (dats m 0 c).arrAt 1 cfg0.N = Cert.RowSum.minusRowSum (m ((c : Thread nD τ).loc main_arg0)) :=
  ((dats m 0 c).arrAt_eq_of_cover 1 (Cert.RowSum.minusRowSum (V m c main_arg0)) (fun t _ => flushed_eq m c t)
    covered).trans (congrArg Cert.RowSum.minusRowSum (V_main_arg0 m c))

/-- The kernel's run, read: the result array at "entry plus negated row sum" of the argument, the argument unchanged. -/
theorem run : θ_run defs (onTc (τ := τ) (main (F := Ideal))) ⟨m, fun _ => 0, ρ⟩ fun r => ∀ c : Dev nD,
      r.2.mem ((c : Thread nD τ).loc main_v0) = Cert.RowSum.minusRowSum (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.lean ====
/-
  The kernel and its reference both return, for an input x of shape [8, 8192, 512], the array

      out[b, s, d] = x[b, s, d] + -(∑ k < 512, x[b, s, k]),

  every entry plus the negated sum of its row. The kernel computes it tile by tile: a grid of 8 × 4 points, each
  staging 2048 whole rows of one batch entry, summing every staged row over its lanes, forming `0 - sum`, spreading it
  over the lanes and adding the staged block. The reference computes it on the whole array: a sum over the last axis
  started from zero, negated, spread and added. Read at the extended reals the two agree index by index: the tiles
  hold whole rows, so a row's sum inside a tile is its sum in the array; the tiles cover the array; and `0 - s = -s`,
  `0 + s = s`. No law used here needs the inputs to be finite, so the precondition is never opened.

  The three frame claims are the generated frame theorems (the reference's is its generated run with the result
  dropped); the idealization rewrote no operation, so `preserves` is `True`; the value claim puts the kernel's run
  (`Cert.KernelIdeal.ArrayValue.run`) beside the reference's run read stage by stage
  (`Cert.ReferenceIdeal.RefValue.result_eq`), both stated with the same function `Cert.RowSum.minusRowSum`.
-/
import proofs.«174104_j66949950210077_2_alg».proof.Defs
import proofs.«174104_j66949950210077_2_alg».proof.Proof.Gen.Kernel
import proofs.«174104_j66949950210077_2_alg».proof.Proof.Gen.Kernel.Skeleton
import proofs.«174104_j66949950210077_2_alg».proof.Proof.Gen.Kernel.Launch
import proofs.«174104_j66949950210077_2_alg».proof.Proof.Gen.Kernel.Points
import proofs.«174104_j66949950210077_2_alg».proof.Proof.Gen.Kernel.Frame
import proofs.«174104_j66949950210077_2_alg».proof.Proof.Gen.KernelIdeal
import proofs.«174104_j66949950210077_2_alg».proof.Proof.Gen.KernelIdeal.Skeleton
import proofs.«174104_j66949950210077_2_alg».proof.Proof.Gen.KernelIdeal.Launch
import proofs.«174104_j66949950210077_2_alg».proof.Proof.Gen.KernelIdeal.Points
import proofs.«174104_j66949950210077_2_alg».proof.Proof.Gen.KernelIdeal.Frame
import proofs.«174104_j66949950210077_2_alg».proof.Proof.Gen.ReferenceIdeal
import proofs.«174104_j66949950210077_2_alg».proof.Proof.Gen.Pre_finite_inputs
import proofs.«174104_j66949950210077_2_alg».proof.Proof.Gen.KernelIdeal.Value
import proofs.«174104_j66949950210077_2_alg».proof.Proof.Gen.ReferenceIdeal.Run
import proofs.«174104_j66949950210077_2_alg».proof.Proof.Gen.ReferenceIdeal.Read
import proofs.«174104_j66949950210077_2_alg».proof.Proof.RowSumSpec
import proofs.«174104_j66949950210077_2_alg».proof.Proof.ReferenceValue
import proofs.«174104_j66949950210077_2_alg».proof.Proof.BlockValue
import proofs.«174104_j66949950210077_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs, faults nowhere and leaves its argument as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories agreeing on the argument, both programs end with the result array at "entry plus negated row sum"
    of that argument. -/
theorem algebraic : Cert.algebraic_KernelIdeal_ReferenceIdeal := by
  intro m ρ m' ρ' _ hagree
  refine ⟨fun c => Cert.RowSum.minusRowSum (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v4_eq (F := Ideal) _).trans
    ((Cert.ReferenceIdeal.RefValue.result_eq _).trans (congrArg Cert.RowSum.minusRowSum (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
